-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x50000x64 : Shape := ⟨3, ![8, 50000, 64]⟩
abbrev S3x64x64 : Shape := ⟨3, ![3, 64, 64]⟩
abbrev S64 : Shape := ⟨1, ![64]⟩
abbrev S2x400000 : Shape := ⟨2, ![2, 400000]⟩
abbrev S_ : Shape := ⟨0, ![]⟩

class Facts : Prop where
  bcast_S_S8x50000x64 : S_.BroadcastsInDim S8x50000x64 (![] : Fin 0 → Fin S8x50000x64.rank)
  reducesTo_S8x50000x64_S_d0_1_2 : S8x50000x64.ReducesTo [0, 1, 2] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x50000x64 .f32) (main_arg1 : FVec F S3x64x64 .f32) (main_arg2 : FVec F S64 .f32) (main_arg3 : IVec S2x400000 32) : IVec S_ 1 :=
  let main_v0 : FVec F S8x50000x64 .f32 := Host.absf main_arg0
  let main_cst : FVec F S_ .f32 := constant S_ .f32 0x7F800000#32
  let main_v1 : FVec F S8x50000x64 .f32 := broadcastInDim S8x50000x64 ![] bcast_S_S8x50000x64 main_cst
  let main_v2 : IVec S8x50000x64 1 := cmpf .olt main_v0 main_v1
  let main_c : IVec S_ 1 := constantI S_ 1 1#1
  let main_v3 : IVec S_ 1 := (fun x v => Host.reduce IntOp.andi x v reducesTo_S8x50000x64_S_d0_1_2 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x50000x64 : Shape := ⟨3, ![8, 50000, 64]⟩
abbrev S3x64x64 : Shape := ⟨3, ![3, 64, 64]⟩
abbrev S64 : Shape := ⟨1, ![64]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x8x64 : Shape := ⟨3, ![50000, 8, 64]⟩
abbrev S50000x512 : Shape := ⟨2, ![50000, 512]⟩
abbrev S400000x512 : Shape := ⟨2, ![400000, 512]⟩
abbrev S400000x64 : Shape := ⟨2, ![400000, 64]⟩
abbrev S5000x64 : Shape := ⟨2, ![5000, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 97
  | .vmem => 10
  | .smem => 0
  | _ => 0

abbrev bufTy : (tb : Table) → Fin (tcTables nBuf tb) → BufTy
  | .hbm, ⟨0, _⟩ => ⟨S8x50000x64, .f32⟩
  | .hbm, ⟨1, _⟩ => ⟨S3x64x64, .f32⟩
  | .hbm, ⟨2, _⟩ => ⟨S64, .f32⟩
  | .hbm, ⟨3, _⟩ => ⟨S2x400000, .i32⟩
  | .hbm, ⟨4, _⟩ => ⟨S1x400000, .i32⟩
  | .hbm, ⟨5, _⟩ => ⟨S400000, .i32⟩
  | .hbm, ⟨6, _⟩ => ⟨S1x400000, .i32⟩
  | .hbm, ⟨7, _⟩ => ⟨S400000, .i32⟩
  | .hbm, ⟨8, _⟩ => ⟨S400000, .i1⟩
  | .hbm, ⟨9, _⟩ => ⟨S_, .f32⟩
  | .hbm, ⟨10, _⟩ => ⟨S_, .f32⟩
  | .hbm, ⟨11, _⟩ => ⟨S400000, .f32⟩
  | .hbm, ⟨12, _⟩ => ⟨S400000, .f32⟩
  | .hbm, ⟨13, _⟩ => ⟨S400000, .f32⟩
  | .hbm, ⟨14, _⟩ => ⟨S_, .f32⟩
  | .hbm, ⟨15, _⟩ => ⟨S50000, .f32⟩
  | .hbm, ⟨16, _⟩ => ⟨S400000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000, .f32⟩
  | .hbm, ⟨36, _⟩ => ⟨S400000, .f32⟩
  | .hbm, ⟨37, _⟩ => ⟨S400000, .f32⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S400000x1, .i32⟩
  | .hbm, ⟨46, _⟩ => ⟨S400000, .f32⟩
  | .hbm, ⟨47, _⟩ => ⟨S400000, .f32⟩
  | .hbm, ⟨48, _⟩ => ⟨S50000x8x64, .f32⟩
  | .hbm, ⟨49, _⟩ => ⟨S50000x512, .f32⟩
  | .hbm, ⟨50, _⟩ => ⟨S400000x1, .f32⟩
  | .hbm, ⟨51, _⟩ => ⟨S_, .i32⟩
  | .hbm, ⟨52, _⟩ => ⟨S400000, .i32⟩
  | .hbm, ⟨53, _⟩ => ⟨S400000, .i1⟩
  | .hbm, ⟨54, _⟩ => ⟨S_, .i32⟩
  | .hbm, ⟨55, _⟩ => ⟨S400000, .i32⟩
  | .hbm, ⟨56, _⟩ => ⟨S400000, .i32⟩
  | .hbm, ⟨57, _⟩ => ⟨S400000, .i32⟩
  | .hbm, ⟨58, _⟩ => ⟨S400000x1, .i32⟩
  | .hbm, ⟨59, _⟩ => ⟨S400000x512, .f32⟩
  | .hbm, ⟨60, _⟩ => ⟨S400000x512, .f32⟩
  | .hbm, ⟨61, _⟩ => ⟨S400000x512, .f32⟩
  | .hbm, ⟨62, _⟩ => ⟨S_, .f32⟩
  | .hbm, ⟨63, _⟩ => ⟨S50000x512, .f32⟩
  | .hbm, ⟨64, _⟩ => ⟨S400000x1, .i32⟩
  | .hbm, ⟨65, _⟩ => ⟨S50000x512, .f32⟩
  | .hbm, ⟨66, _⟩ => ⟨S50000x8x64, .f32⟩
  | .hbm, ⟨67, _⟩ => ⟨S8x50000x64, .f32⟩
  | .hbm, ⟨68, _⟩ => ⟨S50000x8x64, .f32⟩
  | .hbm, ⟨69, _⟩ => ⟨S50000x512, .f32⟩
  | .hbm, ⟨70, _⟩ => ⟨S400000x1, .f32⟩
  | .hbm, ⟨71, _⟩ => ⟨S_, .i32⟩
  | .hbm, ⟨72, _⟩ => ⟨S400000, .i32⟩
  | .hbm, ⟨73, _⟩ => ⟨S400000, .i1⟩
  | .hbm, ⟨74, _⟩ => ⟨S_, .i32⟩
  | .hbm, ⟨75, _⟩ => ⟨S400000, .i32⟩
  | .hbm, ⟨76, _⟩ => ⟨S400000, .i32⟩
  | .hbm, ⟨77, _⟩ => ⟨S400000, .i32⟩
  | .hbm, ⟨78, _⟩ => ⟨S400000x1, .i32⟩
  | .hbm, ⟨79, _⟩ => ⟨S400000x512, .f32⟩
  | .hbm, ⟨80, _⟩ => ⟨S400000x512, .f32⟩
  | .hbm, ⟨81, _⟩ => ⟨S400000x512, .f32⟩
  | .hbm, ⟨82, _⟩ => ⟨S_, .f32⟩
  | .hbm, ⟨83, _⟩ => ⟨S50000x512, .f32⟩
  | .hbm, ⟨84, _⟩ => ⟨S400000x1, .i32⟩
  | .hbm, ⟨85, _⟩ => ⟨S50000x512, .f32⟩
  | .hbm, ⟨86, _⟩ => ⟨S50000x8x64, .f32⟩
  | .hbm, ⟨87, _⟩ => ⟨S8x50000x64, .f32⟩
  | .hbm, ⟨88, _⟩ => ⟨S_, .f32⟩
  | .hbm, ⟨89, _⟩ => ⟨S8x50000x64, .f32⟩
  | .hbm, ⟨90, _⟩ => ⟨S8x50000x64, .f32⟩
  | .hbm, ⟨91, _⟩ => ⟨S8x50000x64, .f32⟩
  | .hbm, ⟨92, _⟩ => ⟨S400000x64, .f32⟩
  | .hbm, ⟨93, _⟩ => ⟨S400000x64, .f32⟩
  | .hbm, ⟨94, _⟩ => ⟨S400000x64, .f32⟩
  | .hbm, ⟨95, _⟩ => ⟨S400000x64, .f32⟩
  | .hbm, ⟨96, _⟩ => ⟨S8x50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S3x64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S8x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_call1_v0 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  transposes_S8x50000x64_S50000x8x64_1_0_2 : S8x50000x64.Transposes [1, 0, 2] S50000x8x64
  shapeCasts_S50000x8x64_S50000x512 : S50000x8x64.ShapeCasts S50000x512
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  shapeCasts_S50000x512_S50000x8x64 : S50000x512.ShapeCasts S50000x8x64
  transposes_S50000x8x64_S8x50000x64_1_0_2 : S50000x8x64.Transposes [1, 0, 2] S8x50000x64
  bcast_S_S8x50000x64 : S_.BroadcastsInDim S8x50000x64 (![] : Fin 0 → Fin S8x50000x64.rank)
  shapeCasts_S8x50000x64_S400000x64 : S8x50000x64.ShapeCasts S400000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S400000x64_S8x50000x64 : S400000x64.ShapeCasts S8x50000x64
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S400000x64.size a
  hwx0_0 : ∀ i : grid0.Coords, EltTy.bits .f32 = 32 ∨ (Rect.block (s := S400000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S400000x64.size a
  hwx0_1 : ∀ i : grid0.Coords, EltTy.bits .f32 = 32 ∨ (Rect.block (s := S400000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S400000x64.size a
  hwx0_2 : ∀ i : grid0.Coords, EltTy.bits .f32 = 32 ∨ (Rect.block (s := S400000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S400000x64.size a
  hwx0_5 : ∀ i : grid0.Coords, EltTy.bits .f32 = 32 ∨ (Rect.block (s := S400000x64) S5000x64.size (cc0_transform_5 i) (hinb0_5 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v68) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v70) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v71) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x50000x64 : Shape := ⟨3, ![8, 50000, 64]⟩
abbrev S3x64x64 : Shape := ⟨3, ![3, 64, 64]⟩
abbrev S64 : Shape := ⟨1, ![64]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S1x64x64 : Shape := ⟨3, ![1, 64, 64]⟩
abbrev S64x64 : Shape := ⟨2, ![64, 64]⟩
abbrev S50000x8x64 : Shape := ⟨3, ![50000, 8, 64]⟩
abbrev S50000x512 : Shape := ⟨2, ![50000, 512]⟩
abbrev S400000x512 : Shape := ⟨2, ![400000, 512]⟩
abbrev S1x1x64 : Shape := ⟨3, ![1, 1, 64]⟩

abbrev nBuf : Space → Nat
  | .hbm => 107
  | .vmem => 0
  | .smem => 0
  | _ => 0

abbrev bufTy : (tb : Table) → Fin (tcTables nBuf tb) → BufTy
  | .hbm, ⟨0, _⟩ => ⟨S8x50000x64, .f32⟩
  | .hbm, ⟨1, _⟩ => ⟨S3x64x64, .f32⟩
  | .hbm, ⟨2, _⟩ => ⟨S64, .f32⟩
  | .hbm, ⟨3, _⟩ => ⟨S2x400000, .i32⟩
  | .hbm, ⟨4, _⟩ => ⟨S1x400000, .i32⟩
  | .hbm, ⟨5, _⟩ => ⟨S400000, .i32⟩
  | .hbm, ⟨6, _⟩ => ⟨S1x400000, .i32⟩
  | .hbm, ⟨7, _⟩ => ⟨S400000, .i32⟩
  | .hbm, ⟨8, _⟩ => ⟨S400000, .i1⟩
  | .hbm, ⟨9, _⟩ => ⟨S_, .f32⟩
  | .hbm, ⟨10, _⟩ => ⟨S_, .f32⟩
  | .hbm, ⟨11, _⟩ => ⟨S400000, .f32⟩
  | .hbm, ⟨12, _⟩ => ⟨S400000, .f32⟩
  | .hbm, ⟨13, _⟩ => ⟨S400000, .f32⟩
  | .hbm, ⟨14, _⟩ => ⟨S_, .f32⟩
  | .hbm, ⟨15, _⟩ => ⟨S50000, .f32⟩
  | .hbm, ⟨16, _⟩ => ⟨S400000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S400000, .i32⟩
  | .hbm, ⟨30, _⟩ => ⟨S400000, .i1⟩
  | .hbm, ⟨31, _⟩ => ⟨S_, .i32⟩
  | .hbm, ⟨32, _⟩ => ⟨S400000, .i32⟩
  | .hbm, ⟨33, _⟩ => ⟨S400000, .i32⟩
  | .hbm, ⟨34, _⟩ => ⟨S400000, .i32⟩
  | .hbm, ⟨35, _⟩ => ⟨S400000x1, .i32⟩
  | .hbm, ⟨36, _⟩ => ⟨S400000, .f32⟩
  | .hbm, ⟨37, _⟩ => ⟨S400000, .f32⟩
  | .hbm, ⟨38, _⟩ => ⟨S400000, .f32⟩
  | .hbm, ⟨39, _⟩ => ⟨S_, .i32⟩
  | .hbm, ⟨40, _⟩ => ⟨S400000, .i32⟩
  | .hbm, ⟨41, _⟩ => ⟨S400000, .i1⟩
  | .hbm, ⟨42, _⟩ => ⟨S_, .i32⟩
  | .hbm, ⟨43, _⟩ => ⟨S400000, .i32⟩
  | .hbm, ⟨44, _⟩ => ⟨S400000, .i32⟩
  | .hbm, ⟨45, _⟩ => ⟨S400000, .i32⟩
  | .hbm, ⟨46, _⟩ => ⟨S400000x1, .i32⟩
  | .hbm, ⟨47, _⟩ => ⟨S400000, .f32⟩
  | .hbm, ⟨48, _⟩ => ⟨S400000, .f32⟩
  | .hbm, ⟨49, _⟩ => ⟨S1x64x64, .f32⟩
  | .hbm, ⟨50, _⟩ => ⟨S64x64, .f32⟩
  | .hbm, ⟨51, _⟩ => ⟨S8x50000x64, .f32⟩
  | .hbm, ⟨52, _⟩ => ⟨S50000x8x64, .f32⟩
  | .hbm, ⟨53, _⟩ => ⟨S50000x512, .f32⟩
  | .hbm, ⟨54, _⟩ => ⟨S400000x1, .f32⟩
  | .hbm, ⟨55, _⟩ => ⟨S_, .i32⟩
  | .hbm, ⟨56, _⟩ => ⟨S400000, .i32⟩
  | .hbm, ⟨57, _⟩ => ⟨S400000, .i1⟩
  | .hbm, ⟨58, _⟩ => ⟨S_, .i32⟩
  | .hbm, ⟨59, _⟩ => ⟨S400000, .i32⟩
  | .hbm, ⟨60, _⟩ => ⟨S400000, .i32⟩
  | .hbm, ⟨61, _⟩ => ⟨S400000, .i32⟩
  | .hbm, ⟨62, _⟩ => ⟨S400000x1, .i32⟩
  | .hbm, ⟨63, _⟩ => ⟨S400000x512, .f32⟩
  | .hbm, ⟨64, _⟩ => ⟨S400000x512, .f32⟩
  | .hbm, ⟨65, _⟩ => ⟨S400000x512, .f32⟩
  | .hbm, ⟨66, _⟩ => ⟨S_, .f32⟩
  | .hbm, ⟨67, _⟩ => ⟨S50000x512, .f32⟩
  | .hbm, ⟨68, _⟩ => ⟨S400000x1, .i32⟩
  | .hbm, ⟨69, _⟩ => ⟨S50000x512, .f32⟩
  | .hbm, ⟨70, _⟩ => ⟨S50000x8x64, .f32⟩
  | .hbm, ⟨71, _⟩ => ⟨S8x50000x64, .f32⟩
  | .hbm, ⟨72, _⟩ => ⟨S1x64x64, .f32⟩
  | .hbm, ⟨73, _⟩ => ⟨S64x64, .f32⟩
  | .hbm, ⟨74, _⟩ => ⟨S8x50000x64, .f32⟩
  | .hbm, ⟨75, _⟩ => ⟨S8x50000x64, .f32⟩
  | .hbm, ⟨76, _⟩ => ⟨S50000x8x64, .f32⟩
  | .hbm, ⟨77, _⟩ => ⟨S50000x512, .f32⟩
  | .hbm, ⟨78, _⟩ => ⟨S400000x1, .f32⟩
  | .hbm, ⟨79, _⟩ => ⟨S_, .i32⟩
  | .hbm, ⟨80, _⟩ => ⟨S400000, .i32⟩
  | .hbm, ⟨81, _⟩ => ⟨S400000, .i1⟩
  | .hbm, ⟨82, _⟩ => ⟨S_, .i32⟩
  | .hbm, ⟨83, _⟩ => ⟨S400000, .i32⟩
  | .hbm, ⟨84, _⟩ => ⟨S400000, .i32⟩
  | .hbm, ⟨85, _⟩ => ⟨S400000, .i32⟩
  | .hbm, ⟨86, _⟩ => ⟨S400000x1, .i32⟩
  | .hbm, ⟨87, _⟩ => ⟨S400000x512, .f32⟩
  | .hbm, ⟨88, _⟩ => ⟨S400000x512, .f32⟩
  | .hbm, ⟨89, _⟩ => ⟨S400000x512, .f32⟩
  | .hbm, ⟨90, _⟩ => ⟨S_, .f32⟩
  | .hbm, ⟨91, _⟩ => ⟨S50000x512, .f32⟩
  | .hbm, ⟨92, _⟩ => ⟨S400000x1, .i32⟩
  | .hbm, ⟨93, _⟩ => ⟨S50000x512, .f32⟩
  | .hbm, ⟨94, _⟩ => ⟨S50000x8x64, .f32⟩
  | .hbm, ⟨95, _⟩ => ⟨S8x50000x64, .f32⟩
  | .hbm, ⟨96, _⟩ => ⟨S_, .f32⟩
  | .hbm, ⟨97, _⟩ => ⟨S8x50000x64, .f32⟩
  | .hbm, ⟨98, _⟩ => ⟨S8x50000x64, .f32⟩
  | .hbm, ⟨99, _⟩ => ⟨S8x50000x64, .f32⟩
  | .hbm, ⟨100, _⟩ => ⟨S1x64x64, .f32⟩
  | .hbm, ⟨101, _⟩ => ⟨S64x64, .f32⟩
  | .hbm, ⟨102, _⟩ => ⟨S8x50000x64, .f32⟩
  | .hbm, ⟨103, _⟩ => ⟨S8x50000x64, .f32⟩
  | .hbm, ⟨104, _⟩ => ⟨S1x1x64, .f32⟩
  | .hbm, ⟨105, _⟩ => ⟨S8x50000x64, .f32⟩
  | .hbm, ⟨106, _⟩ => ⟨S8x50000x64, .f32⟩
  | _, _ => ⟨S8x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  slices_S3x64x64_S1x64x64_0_0_0 : S3x64x64.Slices ![0, 0, 0] S1x64x64
  shapeCasts_S1x64x64_S64x64 : S1x64x64.ShapeCasts S64x64
  transposes_S8x50000x64_S50000x8x64_1_0_2 : S8x50000x64.Transposes [1, 0, 2] S50000x8x64
  shapeCasts_S50000x8x64_S50000x512 : S50000x8x64.ShapeCasts S50000x512
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  shapeCasts_S50000x512_S50000x8x64 : S50000x512.ShapeCasts S50000x8x64
  transposes_S50000x8x64_S8x50000x64_1_0_2 : S50000x8x64.Transposes [1, 0, 2] S8x50000x64
  slices_S3x64x64_S1x64x64_1_0_0 : S3x64x64.Slices ![1, 0, 0] S1x64x64
  bcast_S_S8x50000x64 : S_.BroadcastsInDim S8x50000x64 (![] : Fin 0 → Fin S8x50000x64.rank)
  slices_S3x64x64_S1x64x64_2_0_0 : S3x64x64.Slices ![2, 0, 0] S1x64x64
  bcast_S64_S1x1x64_2 : S64.BroadcastsInDim S1x1x64 (![2] : Fin 1 → Fin S1x1x64.rank)
  bcast_S1x1x64_S8x50000x64_0_1_2 : S1x1x64.BroadcastsInDim S8x50000x64 (![0, 1, 2] : Fin 3 → Fin S8x50000x64.rank)
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  dot_S8x50000x64_S64x64_S8x50000x64_2_0_01_1_n_n_wf : DotDims.WF S8x50000x64 S64x64 S8x50000x64 [2] [0] [0, 1] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def dot_S8x50000x64_S64x64_S8x50000x64_2_0_01_1_n_n : DotDims S8x50000x64 S64x64 S8x50000x64 where
  lhsContracting := [2]
  rhsContracting := [0]
  lhsNonContracting := [0, 1]
  rhsNonContracting := [1]
  lhsBatch := []
  rhsBatch := []
  wf := dot_S8x50000x64_S64x64_S8x50000x64_2_0_01_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

class Facts : Prop extends Facts₀ where

variable [Facts]
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.Spec.lean ====
/-
  The Chebyshev combination as one function of its term arrays.

  Three term arrays A, B, C of shape [8, 50000, 64] (members × nodes × input features), a weight stack W of shape
  [3, 64, 64] and a bias of shape [64] give the array whose entry (p, n, o) is

      ((Σ_k A(p,n,k)·W(0,k,o) + Σ_k B(p,n,k)·W(1,k,o)) + Σ_k C(p,n,k)·W(2,k,o)) + bias(o)

  — the sums associated in exactly this order. The same formula on the flattened rows, [400000, 64] with row
  r = p·50000 + n, is `flat`; splitting its rows back into members gives `combine` of the unflattened terms
  (`unflatten`): the row-major position of (p, n, k) in [8, 50000, 64] is that of (p·50000 + n, k) in [400000, 64].
  No law of arithmetic is used: both sides are the same sums of the same products.
-/
import Idealize.ShloMosaic.Lib.Pipeline.Value
import Idealize.ShloMosaic.Lib.ValueIdx
import Idealize.ShloMosaic.PureOps.Ideal
import proofs.«178159_j38216619000238_2_alg».proof.Proof.LibLayout

noncomputable section

namespace Cert.Cheb

open Idealize.ShloMosaic Idealize.ShloMosaic.ValueIdx

/-- members × nodes × features -/
abbrev SX : Shape := ⟨3, ![8, 50000, 64]⟩
/-- all rows of all members × features -/
abbrev SF : Shape := ⟨2, ![400000, 64]⟩
/-- order × input features × output features -/
abbrev SW : Shape := ⟨3, ![3, 64, 64]⟩
/-- output features -/
abbrev SB : Shape := ⟨1, ![64]⟩

/-- Entry (p, n, o) of the combination of three stacked term arrays. -/
def combineAt (A B C : SX.Idx → EReal) (W : SW.Idx → EReal) (bias : SB.Idx → EReal)
    (p : Fin 8) (n : Fin 50000) (o : Fin 64) : EReal :=
  ((∑ k : Fin 64, A (ix3 p n k) * W (ix3 (0 : Fin 3) k o)
      + ∑ k : Fin 64, B (ix3 p n k) * W (ix3 (1 : Fin 3) k o))
    + ∑ k : Fin 64, C (ix3 p n k) * W (ix3 (2 : Fin 3) k o))
  + bias (ix1 o)

/-- The combination of three stacked term arrays. -/
def combine (A B C : SX.Idx → EReal) (W : SW.Idx → EReal) (bias : SB.Idx → EReal) : SX.Idx → EReal :=
  fun i => combineAt A B C W bias (i 0) (i 1) (i 2)

theorem combine_ix3 (A B C : SX.Idx → EReal) (W : SW.Idx → EReal) (bias : SB.Idx → EReal)
    (p : Fin 8) (n : Fin 50000) (o : Fin 64) :
    combine A B C W bias (ix3 p n o) = combineAt A B C W bias p n o := rfl

/-- Entry (r, o) of the combination of three flattened term arrays. -/
def flatAt (A B C : SF.Idx → EReal) (W : SW.Idx → EReal) (bias : SB.Idx → EReal)
    (r : Fin 400000) (o : Fin 64) : EReal :=
  ((∑ k : Fin 64, A (ix2 r k) * W (ix3 (0 : Fin 3) k o)
      + ∑ k : Fin 64, B (ix2 r k) * W (ix3 (1 : Fin 3) k o))
    + ∑ k : Fin 64, C (ix2 r k) * W (ix3 (2 : Fin 3) k o))
  + bias (ix1 o)

/-- The combination of three flattened term arrays. -/
def flat (A B C : SF.Idx → EReal) (W : SW.Idx → EReal) (bias : SB.Idx → EReal) : SF.Idx → EReal :=
  fun j => flatAt A B C W bias (j 0) (j 1)

theorem flat_ix2 (A B C : SF.Idx → EReal) (W : SW.Idx → EReal) (bias : SB.Idx → EReal)
    (r : Fin 400000) (o : Fin 64) :
    flat A B C W bias (ix2 r o) = flatAt A B C W bias r o := rfl

/-- Flatten the three term arrays, combine row by row, split the rows back into members: the combination of the
    stacked arrays. Row p·50000 + n of a flattened array is row n of member p. -/
theorem unflatten (A B C : SX.Idx → EReal) (W : SW.Idx → EReal) (bias : SB.Idx → EReal)
    (h1 : SX.ShapeCasts SF) (h2 : SF.ShapeCasts SX) :
    shapeCast SX (flat (shapeCast SF A h1) (shapeCast SF B h1) (shapeCast SF C h1) W bias) h2
      = combine A B C W bias := by
  funext i
  obtain ⟨p, n, o, rfl⟩ : ∃ (p : Fin 8) (n : Fin 50000) (o : Fin 64), i = ix3 p n o := ⟨i 0, i 1, i 2, eq_ix3 i⟩
  have hr : p.val * 50000 + n.val < 400000 := by have := p.isLt; have := n.isLt; omega
  rw [Cert.LibLayout.shapeCast_mc_abc_apply _ h2 ⟨p.val * 50000 + n.val, hr⟩ p n o rfl, flat_ix2, combine_ix3]
  unfold flatAt combineAt
  simp only [fun (X : SX.Idx → EReal) (k : Fin 64) =>
    Cert.LibLayout.shapeCast_abc_mc_apply X h1 ⟨p.val * 50000 + n.val, hr⟩ p n k rfl]

end Cert.Cheb

end
-- ==== Proof.RefIsG.lean ====
/-
  The reference's result is the combination of its three terms.

  The reference computes einsum('bni,io->bno') of the node features x with the first weight slab, adds the same
  product of the first-order propagated features with the second slab, adds that of the second-order term with the
  third slab, and adds the bias along the last axis. Read at an entry (p, n, o), with each product the plain sum over
  the contracted feature, this is the combination of Spec.lean of the three term arrays — the two computed terms kept
  as the stages that produce them, unopened.
-/
import proofs.«178159_j38216619000238_2_alg».proof.Proof.RefRead
import proofs.«178159_j38216619000238_2_alg».proof.Proof.Spec

noncomputable section

namespace Cert.ReferenceIdeal.RefValue

open Cert.ReferenceIdeal Cert.ReferenceIdeal.ReadP Idealize.ShloMosaic Idealize.ShloMosaic.ValueIdx

/-- The first weight slab, sliced off the stack and squeezed, at (k, o). -/
theorem slab0 (x1 : (⟨S3x64x64, .f32⟩ : BufTy).Contents (Elt Ideal)) (k o : Fin 64) :
    val_main_v32 (F := Ideal) x1 (ix2 k o) = x1 (ix3 (0 : Fin 3) k o) := by
  rw [val_main_v32_apply, val_main_v31_apply]
  refine congrArg x1 (funext fun a => Fin.ext ?_)
  have hk := k.isLt
  have ho := o.isLt
  match a with
  | ⟨0, _⟩ => rfl
  | ⟨1, _⟩ => show (k.val * 64 + o.val) / 64 % 64 = k.val; omega
  | ⟨2, _⟩ => show (k.val * 64 + o.val) % 64 = o.val; omega

/-- The second weight slab at (k, o). -/
theorem slab1 (x1 : (⟨S3x64x64, .f32⟩ : BufTy).Contents (Elt Ideal)) (k o : Fin 64) :
    val_main_v52 (F := Ideal) x1 (ix2 k o) = x1 (ix3 (1 : Fin 3) k o) := by
  rw [val_main_v52_apply, val_main_v51_apply]
  refine congrArg x1 (funext fun a => Fin.ext ?_)
  have hk := k.isLt
  have ho := o.isLt
  match a with
  | ⟨0, _⟩ => rfl
  | ⟨1, _⟩ => show (k.val * 64 + o.val) / 64 % 64 = k.val; omega
  | ⟨2, _⟩ => show (k.val * 64 + o.val) % 64 = o.val; omega

/-- The third weight slab at (k, o). -/
theorem slab2 (x1 : (⟨S3x64x64, .f32⟩ : BufTy).Contents (Elt Ideal)) (k o : Fin 64) :
    val_main_v76 (F := Ideal) x1 (ix2 k o) = x1 (ix3 (2 : Fin 3) k o) := by
  rw [val_main_v76_apply, val_main_v75_apply]
  refine congrArg x1 (funext fun a => Fin.ext ?_)
  have hk := k.isLt
  have ho := o.isLt
  match a with
  | ⟨0, _⟩ => rfl
  | ⟨1, _⟩ => show (k.val * 64 + o.val) / 64 % 64 = k.val; omega
  | ⟨2, _⟩ => show (k.val * 64 + o.val) % 64 = o.val; omega

/-- The reference's result array is the combination of x, the first-order term and the second-order term. -/
theorem result_eq (x0 : (⟨S8x50000x64, .f32⟩ : BufTy).Contents (Elt Ideal)) (x1 : (⟨S3x64x64, .f32⟩ : BufTy).Contents (Elt Ideal))
    (x2 : (⟨S64, .f32⟩ : BufTy).Contents (Elt Ideal)) (x3 : (⟨S2x400000, .i32⟩ : BufTy).Contents (Elt Ideal)) :
    val_main_v81 (F := Ideal) x0 x1 x2 x3
      = Cert.Cheb.combine x0 (val_main_v50 (F := Ideal) x0 x3) (val_main_v74 (F := Ideal) x0 x3) x1 x2 := by
  funext i
  obtain ⟨p, n, o, rfl⟩ : ∃ (p : Fin 8) (n : Fin 50000) (o : Fin 64), i = ix3 p n o := ⟨i 0, i 1, i 2, eq_ix3 i⟩
  rw [Cert.Cheb.combine_ix3, val_main_v81_apply, val_main_v78_apply, val_main_v54_apply, val_main_v33_apply,
    val_main_v53_apply, val_main_v77_apply, val_main_v80_apply, val_main_v79_apply]
  have l33 (k : Fin 64) : lidx_main_v33 (ix3 p n o) k = ix3 p n k :=
    funext fun a => match a with | ⟨0, _⟩ => rfl | ⟨1, _⟩ => rfl | ⟨2, _⟩ => rfl
  have l53 (k : Fin 64) : lidx_main_v53 (ix3 p n o) k = ix3 p n k :=
    funext fun a => match a with | ⟨0, _⟩ => rfl | ⟨1, _⟩ => rfl | ⟨2, _⟩ => rfl
  have l77 (k : Fin 64) : lidx_main_v77 (ix3 p n o) k = ix3 p n k :=
    funext fun a => match a with | ⟨0, _⟩ => rfl | ⟨1, _⟩ => rfl | ⟨2, _⟩ => rfl
  have r33 (k : Fin 64) : ridx_main_v33 (ix3 p n o) k = ix2 k o :=
    funext fun a => match a with | ⟨0, _⟩ => rfl | ⟨1, _⟩ => rfl
  have r53 (k : Fin 64) : ridx_main_v53 (ix3 p n o) k = ix2 k o :=
    funext fun a => match a with | ⟨0, _⟩ => rfl | ⟨1, _⟩ => rfl
  have r77 (k : Fin 64) : ridx_main_v77 (ix3 p n o) k = ix2 k o :=
    funext fun a => match a with | ⟨0, _⟩ => rfl | ⟨1, _⟩ => rfl
  have eb : idx_main_v79 (idx_main_v80 (ix3 p n o)) = ix1 o :=
    funext fun a => match a with | ⟨0, _⟩ => rfl
  simp only [l33, l53, l77, r33, r53, r77, eb, slab0, slab1, slab2]
  rfl

end Cert.ReferenceIdeal.RefValue

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KBody.lean ====
/-
  One block of the kernel's output, entry by entry.

  At a grid point the body loads three blocks of 5000 rows by 64 features (one from each flattened term array),
  the three 64×64 slabs of the weight stack and the bias, multiplies each block by its slab into zeros, adds the three
  products left to right, adds the bias along every row and stores the result over the whole output block. So entry
  (r, o) of the stored block is

      ((Σ_k X0(r,k)·W(0,k,o) + Σ_k X1(r,k)·W(1,k,o)) + Σ_k X2(r,k)·W(2,k,o)) + bias(o)

  with X0, X1, X2 the three loaded blocks and W, bias the loaded weight stack and bias: a product into zeros is the
  plain sum of products at the ideal values, a slab loaded as [1, 64, 64] and cast to [64, 64] keeps its entries, and
  the bias row [64] → [1, 64] → [5000, 64] is the bias at the column.
-/
import proofs.«178159_j38216619000238_2_alg».proof.Proof.Gen.KernelIdeal.Frame
import proofs.«178159_j38216619000238_2_alg».proof.Proof.LibLayout
import proofs.«178159_j38216619000238_2_alg».proof.Proof.LibPlainDot
import Idealize.ShloMosaic.Lib.ValueLayout

noncomputable section

namespace Cert.KernelIdeal.Body

open Cert.KernelIdeal Cert.KernelIdeal.Gen Idealize.ShloMosaic Idealize.ShloMosaic.ValueIdx

theorem zero2 : (![0, 0] : Fin 2 → Nat) = fun _ => 0 := funext fun a => by fin_cases a <;> rfl
theorem zero1 : (![0] : Fin 1 → Nat) = fun _ => 0 := funext fun a => by fin_cases a <;> rfl

/-- The printed contraction (left columns against right rows, no batch axis) is the plain matrix product. -/
theorem dot_plain : dot_S5000x64_S64x64_S5000x64_1_0_0_1_n_n = DotDims.plain 5000 64 64 := rfl

/-- One product of the body: 5000 rows by one slab held with a leading unit axis, into zeros. -/
theorem product_apply (A : FVec Ideal S5000x64 .f32) (B : FVec Ideal S1x64x64 .f32) (r : Fin 5000) (o : Fin 64) :
    matmul dot_S5000x64_S64x64_S5000x64_1_0_0_1_n_n none (shapeCast S5000x64 A shapeCasts_S5000x64_S5000x64)
        (shapeCast S64x64 B shapeCasts_S1x64x64_S64x64) (constant (F := Ideal) S5000x64 .f32 0x00000000#32) (ix2 r o)
      = ∑ k : Fin 64, A (ix2 r k) * B (ix3 (0 : Fin 1) k o) := by
  rw [shapeCast_self, dot_plain, Cert.PlainDot.matmul_zero_plain_apply]
  refine Finset.sum_congr rfl fun k _ => ?_
  rw [shapeCast_1ab_ab_apply]

/-- The body's stored value at (r, o), from the seven loaded values. -/
theorem pay_apply (v0 : Vec Ideal S5000x64 .f32) (v2 : Vec Ideal S1x64x64 .f32) (v5 : Vec Ideal S5000x64 .f32)
    (v7 : Vec Ideal S1x64x64 .f32) (v11 : Vec Ideal S5000x64 .f32) (v13 : Vec Ideal S1x64x64 .f32)
    (v17 : Vec Ideal S64 .f32) (r : Fin 5000) (o : Fin 64) :
    k0_pay1 v0 v2 v5 v7 v11 v13 v17 (ix2 r o)
      = ((∑ k : Fin 64, v0 (ix2 r k) * v2 (ix3 (0 : Fin 1) k o)
            + ∑ k : Fin 64, v5 (ix2 r k) * v7 (ix3 (0 : Fin 1) k o))
          + ∑ k : Fin 64, v11 (ix2 r k) * v13 (ix3 (0 : Fin 1) k o))
        + v17 (ix1 o) := by
  unfold k0_pay1
  show ((matmul dot_S5000x64_S64x64_S5000x64_1_0_0_1_n_n none (shapeCast S5000x64 v0 shapeCasts_S5000x64_S5000x64)
            (shapeCast S64x64 v2 shapeCasts_S1x64x64_S64x64) (constant (F := Ideal) S5000x64 .f32 0x00000000#32) (ix2 r o)
          + matmul dot_S5000x64_S64x64_S5000x64_1_0_0_1_n_n none (shapeCast S5000x64 v5 shapeCasts_S5000x64_S5000x64)
            (shapeCast S64x64 v7 shapeCasts_S1x64x64_S64x64) (constant (F := Ideal) S5000x64 .f32 0x00000000#32) (ix2 r o))
        + matmul dot_S5000x64_S64x64_S5000x64_1_0_0_1_n_n none (shapeCast S5000x64 v11 shapeCasts_S5000x64_S5000x64)
            (shapeCast S64x64 v13 shapeCasts_S1x64x64_S64x64) (constant (F := Ideal) S5000x64 .f32 0x00000000#32) (ix2 r o))
      + broadcastTo S5000x64 (shapeCast S1x64 v17 shapeCasts_S64_S1x64) broadcasts_S1x64_S5000x64 (ix2 r o) = _
  rw [product_apply, product_apply, product_apply, Cert.LibLayout.bias_apply]

/-- Slab 0 of the weight stack, loaded with its leading unit axis. -/
theorem slab0 (x3 : Vec Ideal S3x64x64 .f32) (k o : Fin 64) :
    View.ld x3 r0_1 (ix3 (0 : Fin 1) k o) = x3 (ix3 (0 : Fin 3) k o) := by
  show x3 (r0_1.emb (ix3 (0 : Fin 1) k o)) = _
  refine congrArg x3 (funext fun a => Fin.ext ?_)
  match a with
  | ⟨0, _⟩ => show 0 + 1 * 0 = 0; rfl
  | ⟨1, _⟩ => show 0 + 1 * k.val = k.val; omega
  | ⟨2, _⟩ => show 0 + 1 * o.val = o.val; omega

/-- Slab 1. -/
theorem slab1 (x3 : Vec Ideal S3x64x64 .f32) (k o : Fin 64) :
    View.ld x3 r0_2 (ix3 (0 : Fin 1) k o) = x3 (ix3 (1 : Fin 3) k o) := by
  show x3 (r0_2.emb (ix3 (0 : Fin 1) k o)) = _
  refine congrArg x3 (funext fun a => Fin.ext ?_)
  match a with
  | ⟨0, _⟩ => show 1 + 1 * 0 = 1; rfl
  | ⟨1, _⟩ => show 0 + 1 * k.val = k.val; omega
  | ⟨2, _⟩ => show 0 + 1 * o.val = o.val; omega

/-- Slab 2. -/
theorem slab2 (x3 : Vec Ideal S3x64x64 .f32) (k o : Fin 64) :
    View.ld x3 r0_3 (ix3 (0 : Fin 1) k o) = x3 (ix3 (2 : Fin 3) k o) := by
  show x3 (r0_3.emb (ix3 (0 : Fin 1) k o)) = _
  refine congrArg x3 (funext fun a => Fin.ext ?_)
  match a with
  | ⟨0, _⟩ => show 2 + 1 * 0 = 2; rfl
  | ⟨1, _⟩ => show 0 + 1 * k.val = k.val; omega
  | ⟨2, _⟩ => show 0 + 1 * o.val = o.val; omega

/-- What the body leaves in the output block, at (r, o), from the five input blocks. -/
theorem block_apply (x0 x1 x2 : Vec Ideal S5000x64 .f32) (x3 : Vec Ideal S3x64x64 .f32) (x4 : Vec Ideal S64 .f32)
    (r : Fin 5000) (o : Fin 64) :
    out0_5 x0 x1 x2 x3 x4 (ix2 r o)
      = ((∑ k : Fin 64, x0 (ix2 r k) * x3 (ix3 (0 : Fin 3) k o)
            + ∑ k : Fin 64, x1 (ix2 r k) * x3 (ix3 (1 : Fin 3) k o))
          + ∑ k : Fin 64, x2 (ix2 r k) * x3 (ix3 (2 : Fin 3) k o))
        + x4 (ix1 o) := by
  unfold out0_5
  rw [View.canon_unit_zero zero2]
  simp only [View.ld_unit_zero (S := S5000x64) zero2, View.ld_unit_zero (S := S64) zero1]
  rw [pay_apply]
  refine congrArg₂ (· + ·) (congrArg₂ (· + ·) (congrArg₂ (· + ·) (Finset.sum_congr rfl fun k _ => ?_)
    (Finset.sum_congr rfl fun k _ => ?_)) (Finset.sum_congr rfl fun k _ => ?_)) rfl
  · rw [slab0]
  · rw [slab1]
  · rw [slab2]

end Cert.KernelIdeal.Body

end
-- ==== Proof.KFinal.lean ====
/-
  The kernel's output array after the launch.

  The grid has 80 points; point t takes rows 5000·t … 5000·t + 4999 of each of the three flattened term arrays, the
  whole weight stack and the whole bias, and writes rows 5000·t … 5000·t + 4999 of the output. By KBody.lean the block
  it writes is, entry by entry, the row-wise combination of Spec.lean (`flat`) of the arrays the launch finds, read at
  the block's rows; the 80 blocks tile the 400000 rows (row r is in the block of point r / 5000), so after the launch
  the output array is `flat` of those arrays.
-/
import proofs.«178159_j38216619000238_2_alg».proof.Proof.Gen.KernelIdeal.Frame
import proofs.«178159_j38216619000238_2_alg».proof.Proof.KBody
import proofs.«178159_j38216619000238_2_alg».proof.Proof.Spec

noncomputable section

namespace Cert.KernelIdeal.Final

open Cert.KernelIdeal Cert.KernelIdeal.Gen Idealize.ShloMosaic Idealize.ShloMosaic.TcCoe Idealize.ShloMosaic.ValueIdx
  Idealize.SL.Sem
open Idealize.ShloMosaic.Pipeline (Dat)

variable (m : (ℓ : Loc nD τ sig) → Buf (Elt Ideal) ℓ)

/-- The printed index maps over the 80 points: the three row-blocked inputs move with the output (block row t,
    block column 0), the weight stack and the bias stay at block 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

/-- The row-wise combination of the five arrays the launch finds. -/
abbrev flatG (c : Dev nD) : S400000x64.Idx → EReal :=
  Cert.Cheb.flat (V m c main_v68) (V m c main_v69) (V m c main_v70) (V m c main_arg1) (V m c main_arg2)

/-- One entry of one block: if the three row blocks hold the rows of A, B, C that the entry's row names, and the
    weight and bias blocks are the whole W and bias, the body's stored entry is the row-wise combination there. -/
theorem point_eq (x0 x1 x2 : Vec Ideal S5000x64 .f32) (x3 : Vec Ideal S3x64x64 .f32) (x4 : Vec Ideal S64 .f32)
    (A B C : S400000x64.Idx → EReal) (W : S3x64x64.Idx → EReal) (bias : S64.Idx → EReal)
    (j : S5000x64.Idx) (i : S400000x64.Idx)
    (h0 : ∀ k : Fin 64, x0 (ix2 (j 0) k) = A (ix2 (i 0) k))
    (h1 : ∀ k : Fin 64, x1 (ix2 (j 0) k) = B (ix2 (i 0) k))
    (h2 : ∀ k : Fin 64, x2 (ix2 (j 0) k) = C (ix2 (i 0) k))
    (h3 : x3 = W) (h4 : x4 = bias) (hi : i 1 = j 1) :
    out0_5 x0 x1 x2 x3 x4 j = Cert.Cheb.flat A B C W bias i := by
  subst h3 h4
  obtain ⟨r, o, rfl⟩ : ∃ (r : Fin 5000) (o : Fin 64), j = ix2 r o := ⟨j 0, j 1, eq_ix2 j⟩
  obtain ⟨r', o', rfl⟩ : ∃ (r' : Fin 400000) (o' : Fin 64), i = ix2 r' o' := ⟨i 0, i 1, eq_ix2 i⟩
  obtain rfl : o' = o := hi
  have g0 : ∀ k : Fin 64, x0 (ix2 r k) = A (ix2 r' k) := h0
  have g1 : ∀ k : Fin 64, x1 (ix2 r k) = B (ix2 r' k) := h1
  have g2 : ∀ k : Fin 64, x2 (ix2 r k) = C (ix2 r' k) := h2
  rw [Cert.KernelIdeal.Body.block_apply, Cert.Cheb.flat_ix2]
  unfold Cert.Cheb.flatAt
  simp only [g0, g1, g2]

/-- Row r of window 0's block at point t is row (block row of the output)·5000 + r of the flattened node features. -/
theorem rows0 (c : Dev nD) (t : Fin cfg0.N) (r : Fin 5000) (k : Fin 64) (R : Fin 400000)
    (hR : R.val = win0_5.index t (0 : Fin 2) * 5000 + 1 * r.val) :
    iblk m c 0 t (ix2 r k) = V m c main_v68 (ix2 R k) := by
  obtain ⟨e00, e01, -⟩ := idx_facts t
  show V m c main_v68 (((cfg0.win 0).blk t).view.emb (ix2 r k)) = V m c main_v68 (ix2 R k)
  refine congrArg (V m c main_v68) (funext fun a => Fin.ext ?_)
  match a with
  | ⟨0, _⟩ => show win0_0.index t (0 : Fin 2) * 5000 + 1 * r.val = R.val; rw [e00, hR]
  | ⟨1, _⟩ => show win0_0.index t (1 : Fin 2) * 64 + 1 * k.val = k.val; rw [e01]; omega

/-- The same for window 1, the flattened first-order term. -/
theorem rows1 (c : Dev nD) (t : Fin cfg0.N) (r : Fin 5000) (k : Fin 64) (R : Fin 400000)
    (hR : R.val = win0_5.index t (0 : Fin 2) * 5000 + 1 * r.val) :
    iblk m c 1 t (ix2 r k) = V m c main_v69 (ix2 R k) := by
  obtain ⟨-, -, e10, e11, -⟩ := idx_facts t
  show V m c main_v69 (((cfg0.win 1).blk t).view.emb (ix2 r k)) = V m c main_v69 (ix2 R k)
  refine congrArg (V m c main_v69) (funext fun a => Fin.ext ?_)
  match a with
  | ⟨0, _⟩ => show win0_1.index t (0 : Fin 2) * 5000 + 1 * r.val = R.val; rw [e10, hR]
  | ⟨1, _⟩ => show win0_1.index t (1 : Fin 2) * 64 + 1 * k.val = k.val; rw [e11]; omega

/-- The same for window 2, the flattened second-order term. -/
theorem rows2 (c : Dev nD) (t : Fin cfg0.N) (r : Fin 5000) (k : Fin 64) (R : Fin 400000)
    (hR : R.val = win0_5.index t (0 : Fin 2) * 5000 + 1 * r.val) :
    iblk m c 2 t (ix2 r k) = V m c main_v70 (ix2 R k) := by
  obtain ⟨-, -, -, -, e20, e21, -⟩ := idx_facts t
  show V m c main_v70 (((cfg0.win 2).blk t).view.emb (ix2 r k)) = V m c main_v70 (ix2 R k)
  refine congrArg (V m c main_v70) (funext fun a => Fin.ext ?_)
  match a with
  | ⟨0, _⟩ => show win0_2.index t (0 : Fin 2) * 5000 + 1 * r.val = R.val; rw [e20, hR]
  | ⟨1, _⟩ => show win0_2.index t (1 : Fin 2) * 64 + 1 * k.val = k.val; rw [e21]; omega

/-- Window 3's block is the whole weight stack at every point. -/
theorem whole3 (c : Dev nD) (t : Fin cfg0.N) : (iblk m c 3 t : S3x64x64.Idx → EReal) = V m c main_arg1 := by
  obtain ⟨-, -, -, -, -, -, e30, e31, e32, -⟩ := idx_facts t
  refine funext fun (y : S3x64x64.Idx) => ?_
  show V m c main_arg1 (((cfg0.win 3).blk t).view.emb y) = V m c main_arg1 y
  refine congrArg (V m c main_arg1) (funext fun a => Fin.ext ?_)
  match a with
  | ⟨0, _⟩ => show win0_3.index t (0 : Fin 3) * 3 + 1 * (y 0).val = (y 0).val; rw [e30]; omega
  | ⟨1, _⟩ => show win0_3.index t (1 : Fin 3) * 64 + 1 * (y 1).val = (y 1).val; rw [e31]; omega
  | ⟨2, _⟩ => show win0_3.index t (2 : Fin 3) * 64 + 1 * (y 2).val = (y 2).val; rw [e32]; omega

/-- Window 4's block is the whole bias at every point. -/
theorem whole4 (c : Dev nD) (t : Fin cfg0.N) : (iblk m c 4 t : S64.Idx → EReal) = V m c main_arg2 := by
  obtain ⟨-, -, -, -, -, -, -, -, -, e40, -⟩ := idx_facts t
  refine funext fun (y : S64.Idx) => ?_
  show V m c main_arg2 (((cfg0.win 4).blk t).view.emb y) = V m c main_arg2 y
  refine congrArg (V m c main_arg2) (funext fun a => Fin.ext ?_)
  match a with
  | ⟨0, _⟩ => show win0_4.index t (0 : Fin 1) * 64 + 1 * (y 0).val = (y 0).val; rw [e40]; omega

set_option maxHeartbeats 2000000 in
/-- WHAT POINT t WRITES BACK is block t of the row-wise combination of the arrays the launch finds. -/
theorem flushed5_eq (c : Dev nD) (t : Fin cfg0.N) :
    (dats m 0 c).flushed 5 t = ((cfg0.win 5).blk t).view.read (Elt Ideal) (flatG m c) := by
  show (cfg0.win 5).cut (grid0.coords t) ((dats m 0 c).after 5 t) = _
  rw [after0_5]
  obtain ⟨-, -, -, -, -, -, -, -, -, -, -, e51⟩ := idx_facts t
  refine funext fun (j : S5000x64.Idx) => ?_
  show out0_5 (iblk m c 0 t) (iblk m c 1 t) (iblk m c 2 t) (iblk m c 3 t) (iblk m c 4 t) j
    = flatG m c (((cfg0.win 5).blk t).view.emb j)
  refine point_eq (iblk m c 0 t) (iblk m c 1 t) (iblk m c 2 t) (iblk m c 3 t) (iblk m c 4 t)
    (V m c main_v68) (V m c main_v69) (V m c main_v70) (V m c main_arg1) (V m c main_arg2) j
    (((cfg0.win 5).blk t).view.emb j)
    (fun k => rows0 m c t (j 0) k _ rfl) (fun k => rows1 m c t (j 0) k _ rfl) (fun k => rows2 m c t (j 0) k _ rfl)
    (whole3 m c t) (whole4 m c t) ?_
  refine Fin.ext ?_
  show win0_5.index t (1 : Fin 2) * 64 + 1 * (j 1).val = (j 1).val
  rw [e51]; omega

/-- An index of the output array is in point t's block iff each coordinate is in the block's range on its axis. -/
theorem mem_blk5 (t : Fin cfg0.N) (i : S400000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v71).slice (win0_5.rect t)).set ↔ _
  rw [View.set_slice_whole, Rect.mem_set_unit]
  exact Iff.rfl

/-- The 80 blocks tile the rows: row r is in the block of point r / 5000. -/
theorem cover5 (i : S400000x64.Idx) :
    ∃ t : Fin cfg0.N, (cfg0.win 5).flush t = true ∧ i ∈ ((cfg0.win 5).blk t).view.set := by
  have hi0 : (i 0).val < 400000 := (i 0).isLt
  have hi1 : (i 1).val < 64 := (i 1).isLt
  obtain ⟨t, ht⟩ : ∃ t : Fin cfg0.N, t.val = (i 0).val / 5000 :=
    ⟨⟨(i 0).val / 5000, by rw [show cfg0.N = 80 from N_0]; omega⟩, rfl⟩
  obtain ⟨-, -, -, -, -, -, -, -, -, -, e50, e51⟩ := idx_facts t
  refine ⟨t, flush0_5 t, ?_⟩
  rw [mem_blk5]
  intro a
  match a with
  | ⟨0, _⟩ =>
    show win0_5.index t (0 : Fin 2) * 5000 ≤ (i 0).val ∧ (i 0).val < win0_5.index t (0 : Fin 2) * 5000 + 5000
    rw [e50, ht]; omega
  | ⟨1, _⟩ =>
    show win0_5.index t (1 : Fin 2) * 64 ≤ (i 1).val ∧ (i 1).val < win0_5.index t (1 : Fin 2) * 64 + 64
    rw [e51]; omega

/-- THE OUTPUT ARRAY after the launch. -/
theorem final5 (c : Dev nD) : (dats m 0 c).arrAt 5 cfg0.N = flatG m c :=
  (dats m 0 c).arrAt_eq_of_cover 5 (flatG m c) (fun t _ => flushed5_eq m c t) cover5

end Cert.KernelIdeal.Final

end
-- ==== Proof.LibTypedRefs.lean ====
/-
  Typed references of an inlined host function: a value moved to the buffer's own type and back is itself.

  A host function that was outlined (max(·, 0), log-softmax, …) is written over references that carry the type of the
  tensor they hold.  Each of its operations writes its result through the transport from the tensor's type to the
  buffer's type and reads each operand through the transport back, both along the equation "the buffer's type is the
  tensor's type".  When such a stretch of operations is read back as one composed term, every intermediate value is left
  wrapped in the pair: back ∘ there.  The pair is the identity for ANY typed reference (destruct the reference and
  substitute its equation), so it can be rewritten away without knowing the references.  What then remains is at most
  one transport per buffer that an operation outside the function wrote and one at the function's result, each the
  identity by computation at its literal reference over a variable value.  On a deep body (log-softmax is fifteen
  operations) removing the pairs first keeps the comparison of the composed term with its closed form a comparison of
  syntax, where leaving them in makes it unfold the operations themselves at their full extents.
-/
import Idealize.ShloMosaic.Lib.StableHlo

namespace Cert.Lib.TypedRefs

open Idealize.ShloMosaic Idealize.ShloMosaic.StableHlo

variable {sig : RefSig} {Val : EltTy → Type} {T : BufTy}

/-- To the buffer's type and back. -/
theorem ofBuf_toBuf (x : TRef sig T) (v : T.Contents Val) : x.ofBuf (x.toBuf v) = v := by
  obtain ⟨r, h, h2, h3⟩ := x
  subst h
  rfl

/-- To the tensor's type and back. -/
theorem toBuf_ofBuf (x : TRef sig T) (v : x.ref.ty.Contents Val) : x.toBuf (x.ofBuf v) = v := by
  obtain ⟨r, h, h2, h3⟩ := x
  subst h
  rfl

end Cert.Lib.TypedRefs
-- ==== Proof.KEntry.lean ====
/-
  The three term arrays as the kernel's launch finds them.

  Before the launch the host computes, from the node features x and the edge list, the first-order propagated
  features and the second-order Chebyshev term, by the same chain of operations the reference applies (degree by
  scatter-add, inverse square roots, edge weights, gather – scale – scatter-add, and the recurrence 2·prop − x), and
  flattens each of x, the first-order term and the second-order term from [8, 50000, 64] to [400000, 64]. This module
  reads the three flattened arrays off the host prefix and names the two computed terms by the reference's own stages
  (the two programs apply the same operations to the same arguments), so that nothing downstream opens them. The two
  outlined selections move values between a tensor's type and its buffer's type — two spellings of one type — and
  those moves are identities.
-/
import proofs.«178159_j38216619000238_2_alg».proof.Proof.Gen.KernelIdeal.Frame
import proofs.«178159_j38216619000238_2_alg».proof.Proof.RefRead
import proofs.«178159_j38216619000238_2_alg».proof.Proof.LibTypedRefs

noncomputable section

namespace Cert.KernelIdeal.Entry

open Cert.KernelIdeal Cert.KernelIdeal.Gen Idealize.ShloMosaic Idealize.ShloMosaic.TcCoe
  Idealize.SL.Sem Idealize.ShloMosaic.StableHlo

variable (m : (ℓ : Loc nD τ sig) → Buf (Elt Ideal) ℓ)

/-- The first-order propagated features, as the reference's stage of the same operations. -/
abbrev term1 (c : Dev nD) : S8x50000x64.Idx → EReal :=
  Cert.ReferenceIdeal.ReadP.val_main_v50 (F := Ideal) (m ((c : Thread nD τ).loc main_arg0)) (m ((c : Thread nD τ).loc main_arg3))

/-- The second-order Chebyshev term, as the reference's stage of the same operations. -/
abbrev term2 (c : Dev nD) : S8x50000x64.Idx → EReal :=
  Cert.ReferenceIdeal.ReadP.val_main_v74 (F := Ideal) (m ((c : Thread nD τ).loc main_arg0)) (m ((c : Thread nD τ).loc main_arg3))

/-! The two outlined selections (edge weight: 1 off the diagonal, 0 on it; inverse square root of a positive degree,
    0 otherwise) read their operands from, and write their result to, buffers whose types are the tensors' own: the
    transports between the two spellings of one type are the identity. -/

section Transports
variable {Val : EltTy → Type}

theorem ofBuf_v4 (h1 : main_v4.ty = (⟨S400000, .i1⟩ : BufTy)) (h2 : main_v4.space ≠ .host) (h3 : main_v4.isScoped = false)
    (v : main_v4.ty.Contents Val) : (TRef.of (sig := sig) main_v4 h1 h2 h3).ofBuf v = v := rfl
theorem ofBuf_cst (h1 : main_cst.ty = (⟨S_, .f32⟩ : BufTy)) (h2 : main_cst.space ≠ .host) (h3 : main_cst.isScoped = false)
    (v : main_cst.ty.Contents Val) : (TRef.of (sig := sig) main_cst h1 h2 h3).ofBuf v = v := rfl
theorem ofBuf_cst_0 (h1 : main_cst_0.ty = (⟨S_, .f32⟩ : BufTy)) (h2 : main_cst_0.space ≠ .host) (h3 : main_cst_0.isScoped = false)
    (v : main_cst_0.ty.Contents Val) : (TRef.of (sig := sig) main_cst_0 h1 h2 h3).ofBuf v = v := rfl
theorem toBuf_v5 (h1 : main_v5.ty = (⟨S400000, .f32⟩ : BufTy)) (h2 : main_v5.space ≠ .host) (h3 : main_v5.isScoped = false)
    (v : (⟨S400000, .f32⟩ : BufTy).Contents Val) : (TRef.of (sig := sig) main_v5 h1 h2 h3).toBuf v = v := rfl
theorem ofBuf_v10 (h1 : main_v10.ty = (⟨S50000, .i1⟩ : BufTy)) (h2 : main_v10.space ≠ .host) (h3 : main_v10.isScoped = false)
    (v : main_v10.ty.Contents Val) : (TRef.of (sig := sig) main_v10 h1 h2 h3).ofBuf v = v := rfl
theorem ofBuf_v12 (h1 : main_v12.ty = (⟨S50000, .f32⟩ : BufTy)) (h2 : main_v12.space ≠ .host) (h3 : main_v12.isScoped = false)
    (v : main_v12.ty.Contents Val) : (TRef.of (sig := sig) main_v12 h1 h2 h3).ofBuf v = v := rfl
theorem ofBuf_cst_4 (h1 : main_cst_4.ty = (⟨S_, .f32⟩ : BufTy)) (h2 : main_cst_4.space ≠ .host) (h3 : main_cst_4.isScoped = false)
    (v : main_cst_4.ty.Contents Val) : (TRef.of (sig := sig) main_cst_4 h1 h2 h3).ofBuf v = v := rfl
theorem toBuf_v13 (h1 : main_v13.ty = (⟨S50000, .f32⟩ : BufTy)) (h2 : main_v13.space ≠ .host) (h3 : main_v13.isScoped = false)
    (v : (⟨S50000, .f32⟩ : BufTy).Contents Val) : (TRef.of (sig := sig) main_v13 h1 h2 h3).toBuf v = v := rfl

end Transports

set_option maxHeartbeats 4000000 in
/-- Window 0's array: the node features, flattened. -/
theorem V_flat0 (c : Dev nD) : (V m c main_v68 : S400000x64.Idx → EReal)
    = shapeCast S400000x64 (m ((c : Thread nD τ).loc main_arg0) : S8x50000x64.Idx → EReal) shapeCasts_S8x50000x64_S400000x64 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 4000000 in
/-- Window 1's array: the first-order term, flattened. -/
theorem V_flat1 (c : Dev nD) : (V m c main_v69 : S400000x64.Idx → EReal)
    = shapeCast S400000x64 (term1 m c) shapeCasts_S8x50000x64_S400000x64 := by
  dsimp only [V, V0]
  simp only [hostOps0, hostOps0_1, hostOps0_2, hostOps0_3, hostOps0_4, List.flatten_cons, List.flatten_nil, List.append_nil,
    List.cons_append, List.nil_append]
  after_results_simp
  simp only [Cert.Lib.TypedRefs.ofBuf_toBuf, Cert.Lib.TypedRefs.toBuf_ofBuf]
  simp only [ofBuf_v4, ofBuf_cst, ofBuf_cst_0, toBuf_v5, ofBuf_v10, ofBuf_v12, ofBuf_cst_4, toBuf_v13]
  rfl

set_option maxHeartbeats 4000000 in
/-- Window 2's array: the second-order term, flattened. -/
theorem V_flat2 (c : Dev nD) : (V m c main_v70 : S400000x64.Idx → EReal)
    = shapeCast S400000x64 (term2 m c) shapeCasts_S8x50000x64_S400000x64 := by
  dsimp only [V, V0]
  simp only [hostOps0, hostOps0_1, hostOps0_2, hostOps0_3, hostOps0_4, List.flatten_cons, List.flatten_nil, List.append_nil,
    List.cons_append, List.nil_append]
  after_results_simp
  simp only [Cert.Lib.TypedRefs.ofBuf_toBuf, Cert.Lib.TypedRefs.toBuf_ofBuf]
  simp only [ofBuf_v4, ofBuf_cst, ofBuf_cst_0, toBuf_v5, ofBuf_v10, ofBuf_v12, ofBuf_cst_4, toBuf_v13]
  rfl

end Cert.KernelIdeal.Entry

end
-- ==== Proof.KValue.lean ====
/-
  The kernel program's result.

  After the launch one host operation is left: the output array [400000, 64] is split back into members,
  [8, 50000, 64]. The output array is the row-wise combination of the three flattened term arrays (KFinal.lean), each
  of which is a term array of shape [8, 50000, 64] flattened (KEntry.lean); splitting the rows of the combination of
  flattened arrays back into members is the combination of the arrays themselves (Spec.lean). So the program ends
  with its result at the combination of the node features, the first-order term and the second-order term, with the
  weight stack and the bias as launched, and with its arguments unchanged.
-/
import proofs.«178159_j38216619000238_2_alg».proof.Proof.Gen.KernelIdeal.Frame
import proofs.«178159_j38216619000238_2_alg».proof.Proof.KFinal
import proofs.«178159_j38216619000238_2_alg».proof.Proof.KEntry
import proofs.«178159_j38216619000238_2_alg».proof.Proof.Spec

noncomputable section

namespace Cert.KernelIdeal.Result

open Cert.KernelIdeal Cert.KernelIdeal.Gen Idealize.ShloMosaic Idealize.ShloMosaic.TcCoe
  Idealize.SL.Sem Idealize.ShloMosaic.StableHlo

variable (m : (ℓ : Loc nD τ sig) → Buf (Elt Ideal) ℓ) (ρ : Dev nD → PrngReg)

/-- The program's result as a function of the launch memory. -/
abbrev result (c : Dev nD) : S8x50000x64.Idx → EReal :=
  Cert.Cheb.combine (m ((c : Thread nD τ).loc main_arg0)) (Entry.term1 m c) (Entry.term2 m c)
    (m ((c : Thread nD τ).loc main_arg1)) (m ((c : Thread nD τ).loc main_arg2))

/-- The row-wise combination the launch leaves is that of the flattened term arrays. -/
theorem flatG_eq (c : Dev nD) : Final.flatG m c
    = Cert.Cheb.flat (shapeCast S400000x64 (m ((c : Thread nD τ).loc main_arg0) : S8x50000x64.Idx → EReal) shapeCasts_S8x50000x64_S400000x64)
        (shapeCast S400000x64 (Entry.term1 m c) shapeCasts_S8x50000x64_S400000x64)
        (shapeCast S400000x64 (Entry.term2 m c) shapeCasts_S8x50000x64_S400000x64)
        (m ((c : Thread nD τ).loc main_arg1)) (m ((c : Thread nD τ).loc main_arg2)) := by
  unfold Final.flatG
  rw [Entry.V_flat0, Entry.V_flat1, Entry.V_flat2, V_main_arg1, V_main_arg2]

/-- What the one host operation after the launch leaves in the result buffer. -/
theorem tail_eq (c : Dev nD) :
    Pipeline.afterTail₀ cfgs (dats m) 0 (V0 m) [hostOps1] c main_v72 = result m c := by
  unfold Pipeline.afterTail₀
  show StableHlo.after hostOps1 _ (Proc.devRef .tc main_v72) = _
  after_results
  show shapeCast S8x50000x64
      (Pipeline.withArrays spec0 c (V0 m c) (fun w => (dats m 0 c).arrAt w cfg0.N) (Proc.devRef .tc main_v71) :
        S400000x64.Idx → EReal)
      shapeCasts_S400000x64_S8x50000x64 = result m c
  rw [show (Pipeline.withArrays spec0 c (V0 m c) (fun w => (dats m 0 c).arrAt w cfg0.N) (Proc.devRef .tc main_v71) :
        S400000x64.Idx → EReal) = Final.flatG m c from
      (Pipeline.withArrays_arr spec0 launch0.win.arr_inj c _ _ 5).trans (Final.final5 m c), flatG_eq]
  exact Cert.Cheb.unflatten _ _ _ _ _ _ _

/-- THE RUN of the kernel program at the ideal values: every weakly fair execution terminates with the result at the
    combination of the three terms and the arguments unchanged. -/
theorem run : θ_run defs (onTc (τ := τ) (main (F := Ideal))) ⟨m, fun _ => 0, ρ⟩ fun r => ∀ c : Dev nD,
      r.2.mem ((c.tc : Thread nD τ).loc main_v72) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v72 (Pipeline.mem_restRefs_of main_v72 (by decide) (by decide))).trans (tail_eq m c),
        ((h c).2 main_arg0 (Pipeline.mem_restRefs_of main_arg0 (by decide) (by decide))).trans (W_main_arg0 m (dats m) c),
        ((h c).1 3).trans (((dats m 0 c).arrAt_in 3 rfl _).trans ((A_eq m c 3).trans (V_main_arg1 m c))),
        ((h c).1 4).trans (((dats m 0 c).arrAt_in 4 rfl _).trans ((A_eq m c 4).trans (V_main_arg2 m c))),
        ((h c).2 main_arg3 (Pipeline.mem_restRefs_of main_arg3 (by decide) (by decide))).trans (W_main_arg3 m (dats m) c)⟩)
    (run_main m ρ)

end Cert.KernelIdeal.Result

end
-- ==== Proof.lean ====
/-
  A Chebyshev graph convolution of order three, kernel against reference, over the extended reals.

  Both programs compute, from node features x [8, 50000, 64], a weight stack W [3, 64, 64], a bias [64] and an edge
  list [2, 400000], the terms T0 = x, T1 = L·x and T2 = 2·L·T1 − x — L the degree-normalised graph operator, applied by
  gathering source rows, scaling them by the edge weights and scatter-adding them into target rows — and then

      out(p, n, o) = ((Σ_k T0(p,n,k)·W(0,k,o) + Σ_k T1(p,n,k)·W(1,k,o)) + Σ_k T2(p,n,k)·W(2,k,o)) + bias(o).

  The two programs apply the same host operations to the same arguments to form T1 and T2, so those terms are carried
  as one function of the arguments and never opened. They differ in how the last line is computed: the reference takes
  three products over the stacked arrays and adds them and the bias; the kernel program flattens the three terms to
  [400000, 64], combines them block by block (80 blocks of 5000 rows) in one launch, and splits the rows back into
  members. At the ideal values a product into zeros is the plain sum of products and flattening only renames rows, so
  both results are the displayed function of (T0, T1, T2, W, bias), with the sums associated the same way: no law of
  arithmetic beyond the definitions is used, and finiteness of the inputs is not needed.

  The three frame claims are the generated frame runs (the reference's is its run with the result dropped); the
  idealization rewrote nothing, so the preservation claim is trivial.
-/
import proofs.«178159_j38216619000238_2_alg».proof.Defs
import proofs.«178159_j38216619000238_2_alg».proof.Proof.Gen.Kernel
import proofs.«178159_j38216619000238_2_alg».proof.Proof.Gen.Kernel.Skeleton
import proofs.«178159_j38216619000238_2_alg».proof.Proof.Gen.Kernel.Launch
import proofs.«178159_j38216619000238_2_alg».proof.Proof.Gen.Kernel.Points
import proofs.«178159_j38216619000238_2_alg».proof.Proof.Gen.Kernel.Frame
import proofs.«178159_j38216619000238_2_alg».proof.Proof.Gen.KernelIdeal
import proofs.«178159_j38216619000238_2_alg».proof.Proof.Gen.KernelIdeal.Skeleton
import proofs.«178159_j38216619000238_2_alg».proof.Proof.Gen.KernelIdeal.Launch
import proofs.«178159_j38216619000238_2_alg».proof.Proof.Gen.KernelIdeal.Points
import proofs.«178159_j38216619000238_2_alg».proof.Proof.Gen.KernelIdeal.Frame
import proofs.«178159_j38216619000238_2_alg».proof.Proof.Gen.ReferenceIdeal
import proofs.«178159_j38216619000238_2_alg».proof.Proof.Gen.Pre_finite_inputs
import proofs.«178159_j38216619000238_2_alg».proof.Proof.RefRun
import proofs.«178159_j38216619000238_2_alg».proof.Proof.RefRead
import proofs.«178159_j38216619000238_2_alg».proof.Proof.RefIsG
import proofs.«178159_j38216619000238_2_alg».proof.Proof.KValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the combination of (x, L·x, 2·L·L·x − x) under W and the bias: the kernel program by its
    launch read back and unflattened, the reference by its three products read at an entry; the arguments agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v81_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
